-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x9x84x84 : Shape := ⟨4, ![4096, 9, 84, 84]⟩
abbrev S4096x9 : Shape := ⟨2, ![4096, 9]⟩
abbrev S4096 : Shape := ⟨1, ![4096]⟩
abbrev S_ : Shape := ⟨0, ![]⟩

class Facts : Prop where
  bcast_S_S4096x9x84x84 : S_.BroadcastsInDim S4096x9x84x84 (![] : Fin 0 → Fin S4096x9x84x84.rank)
  reducesTo_S4096x9x84x84_S_d0_1_2_3 : S4096x9x84x84.ReducesTo [0, 1, 2, 3] S_
  h_S_ : 0 < S_.numel
  bcast_S_S4096x9 : S_.BroadcastsInDim S4096x9 (![] : Fin 0 → Fin S4096x9.rank)
  reducesTo_S4096x9_S_d0_1 : S4096x9.ReducesTo [0, 1] S_

variable [Facts]

def fn {F : FTy → Type} [FloatOps F] (main_arg0 : FVec F S4096x9x84x84 .f32) (main_arg1 : FVec F S4096x9 .f32) (main_arg2 : IVec S4096 32) (main_arg3 : IVec S4096 32) : IVec S_ 1 :=
  let main_v0 : FVec F S4096x9x84x84 .f32 := Host.absf main_arg0
  let main_cst : FVec F S_ .f32 := constant S_ .f32 0x7F800000#32
  let main_v1 : FVec F S4096x9x84x84 .f32 := broadcastInDim S4096x9x84x84 ![] bcast_S_S4096x9x84x84 main_cst
  let main_v2 : IVec S4096x9x84x84 1 := cmpf .olt main_v0 main_v1
  let main_c : IVec S_ 1 := constantI S_ 1 1#1
  let main_v3 : IVec S_ 1 := (fun x v => Host.reduce IntOp.andi x v reducesTo_S4096x9x84x84_S_d0_1_2_3 h_S_) main_v2 main_c
  let main_v4 : FVec F S4096x9 .f32 := Host.absf main_arg1
  let main_cst_0 : FVec F S_ .f32 := constant S_ .f32 0x7F800000#32
  let main_v5 : FVec F S4096x9 .f32 := broadcastInDim S4096x9 ![] bcast_S_S4096x9 main_cst_0
  let main_v6 : IVec S4096x9 1 := cmpf .olt main_v4 main_v5
  let main_c_1 : IVec S_ 1 := constantI S_ 1 1#1
  let main_v7 : IVec S_ 1 := (fun x v => Host.reduce IntOp.andi x v reducesTo_S4096x9_S_d0_1 h_S_) main_v6 main_c_1
  let main_v8 : IVec S_ 1 := andi main_v3 main_v7
  main_v8
-- ==== Kernel.lean ====
abbrev S4096x9x84x84 : Shape := ⟨4, ![4096, 9, 84, 84]⟩
abbrev S4096x9 : Shape := ⟨2, ![4096, 9]⟩
abbrev S4096 : Shape := ⟨1, ![4096]⟩
abbrev S4096x1 : Shape := ⟨2, ![4096, 1]⟩
abbrev S16x9x84x84 : Shape := ⟨4, ![16, 9, 84, 84]⟩
abbrev S16x9 : Shape := ⟨2, ![16, 9]⟩
abbrev S16x1 : Shape := ⟨2, ![16, 1]⟩
abbrev S16x1x1x1 : Shape := ⟨4, ![16, 1, 1, 1]⟩
abbrev S16x9x1x1 : Shape := ⟨4, ![16, 9, 1, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x9x84x84, .f32⟩
  | .hbm, ⟨1, _⟩ => ⟨S4096x9, .f32⟩
  | .hbm, ⟨2, _⟩ => ⟨S4096, .i32⟩
  | .hbm, ⟨3, _⟩ => ⟨S4096, .i32⟩
  | .hbm, ⟨4, _⟩ => ⟨S4096x1, .i32⟩
  | .hbm, ⟨5, _⟩ => ⟨S4096x1, .i32⟩
  | .hbm, ⟨6, _⟩ => ⟨S4096x9x84x84, .f32⟩
  | .local _ .vmem, ⟨0, _⟩ => ⟨S16x9x84x84, .f32⟩
  | .local _ .vmem, ⟨1, _⟩ => ⟨S16x9x84x84, .f32⟩
  | .local _ .vmem, ⟨2, _⟩ => ⟨S16x9, .f32⟩
  | .local _ .vmem, ⟨3, _⟩ => ⟨S16x9, .f32⟩
  | .local _ .vmem, ⟨4, _⟩ => ⟨S16x1, .i32⟩
  | .local _ .vmem, ⟨5, _⟩ => ⟨S16x1, .i32⟩
  | .local _ .vmem, ⟨6, _⟩ => ⟨S16x1, .i32⟩
  | .local _ .vmem, ⟨7, _⟩ => ⟨S16x1, .i32⟩
  | .local _ .vmem, ⟨8, _⟩ => ⟨S16x9x84x84, .f32⟩
  | .local _ .vmem, ⟨9, _⟩ => ⟨S16x9x84x84, .f32⟩
  | _, _ => ⟨S4096x9x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x9x84x84 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x9x84x84 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S4096x1 : S4096.ShapeCasts S4096x1
  inb_S16x9x84x84_S16x9x84x84_0_0_0_0 : ∀ a, (![0, 0, 0, 0] : Fin 4 → Nat) a + S16x9x84x84.size a ≤ S16x9x84x84.size a
  h_S16x9x84x84 : 0 < S16x9x84x84.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x9_S16x9_0_0 : ∀ a, (![0, 0] : Fin 2 → Nat) a + S16x9.size a ≤ S16x9.size a
  h_S16x9 : 0 < S16x9.numel
  iota_S16x9x84x84_d2_w32 : S16x9x84x84.Iotas .tc 32 [2]
  iota_S16x9x84x84_d3_w32 : S16x9x84x84.Iotas .tc 32 [3]
  shapeCasts_S16x1_S16x1x1x1 : S16x1.ShapeCasts S16x1x1x1
  broadcasts_S16x1x1x1_S16x9x84x84 : S16x1x1x1.Broadcasts S16x9x84x84
  shapeCasts_S16x9_S16x9x1x1 : S16x9.ShapeCasts S16x9x1x1
  shapeCasts_S16x9x1x1_S16x9x1x1 : S16x9x1x1.ShapeCasts S16x9x1x1
  broadcasts_S16x9x1x1_S16x9x84x84 : S16x9x1x1.Broadcasts S16x9x84x84
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x9x84x84.size a ≤ S4096x9x84x84.size a
  hwx0_0 : ∀ i : grid0.Coords, EltTy.bits .f32 = 32 ∨ (Rect.block (s := S4096x9x84x84) S16x9x84x84.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x9.size a ≤ S4096x9.size a
  hwx0_1 : ∀ i : grid0.Coords, EltTy.bits .f32 = 32 ∨ (Rect.block (s := S4096x9) S16x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S4096x1.size a
  hwx0_2 : ∀ i : grid0.Coords, EltTy.bits .i32 = 32 ∨ (Rect.block (s := S4096x1) S16x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S4096x1.size a
  hwx0_3 : ∀ i : grid0.Coords, EltTy.bits .i32 = 32 ∨ (Rect.block (s := S4096x1) S16x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x9x84x84.size a ≤ S4096x9x84x84.size a
  hwx0_4 : ∀ i : grid0.Coords, EltTy.bits .f32 = 32 ∨ (Rect.block (s := S4096x9x84x84) S16x9x84x84.size (cc0_transform_4 i) (hinb0_4 i)).WholeWords (EltTy.packing .f32)

variable [Facts₀]

abbrev win0_0 : Pipeline.Window sig grid0 :=
  Pipeline.Window.ofSpec (Memref.whole main_arg0) S16x9x84x84.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x9x84x84.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x9x84x84 : Shape := ⟨4, ![4096, 9, 84, 84]⟩
abbrev S4096x9 : Shape := ⟨2, ![4096, 9]⟩
abbrev S4096 : Shape := ⟨1, ![4096]⟩
abbrev S84 : Shape := ⟨1, ![84]⟩
abbrev S1x84 : Shape := ⟨2, ![1, 84]⟩
abbrev S4096x1 : Shape := ⟨2, ![4096, 1]⟩
abbrev S4096x84 : Shape := ⟨2, ![4096, 84]⟩
abbrev S_ : Shape := ⟨0, ![]⟩
abbrev S4096x1x84x1 : Shape := ⟨4, ![4096, 1, 84, 1]⟩
abbrev S4096x1x1x84 : Shape := ⟨4, ![4096, 1, 1, 84]⟩
abbrev S4096x1x84x84 : Shape := ⟨4, ![4096, 1, 84, 84]⟩
abbrev S4096x9x1x1 : Shape := ⟨4, ![4096, 9, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x9x84x84, .f32⟩
  | .hbm, ⟨1, _⟩ => ⟨S4096x9, .f32⟩
  | .hbm, ⟨2, _⟩ => ⟨S4096, .i32⟩
  | .hbm, ⟨3, _⟩ => ⟨S4096, .i32⟩
  | .hbm, ⟨4, _⟩ => ⟨S84, .i32⟩
  | .hbm, ⟨5, _⟩ => ⟨S84, .i32⟩
  | .hbm, ⟨6, _⟩ => ⟨S1x84, .i32⟩
  | .hbm, ⟨7, _⟩ => ⟨S4096x1, .i32⟩
  | .hbm, ⟨8, _⟩ => ⟨S4096x84, .i32⟩
  | .hbm, ⟨9, _⟩ => ⟨S4096x84, .i32⟩
  | .hbm, ⟨10, _⟩ => ⟨S4096x84, .i1⟩
  | .hbm, ⟨11, _⟩ => ⟨S1x84, .i32⟩
  | .hbm, ⟨12, _⟩ => ⟨S4096x1, .i32⟩
  | .hbm, ⟨13, _⟩ => ⟨S_, .i32⟩
  | .hbm, ⟨14, _⟩ => ⟨S4096x1, .i32⟩
  | .hbm, ⟨15, _⟩ => ⟨S4096x1, .i32⟩
  | .hbm, ⟨16, _⟩ => ⟨S4096x84, .i32⟩
  | .hbm, ⟨17, _⟩ => ⟨S4096x84, .i32⟩
  | .hbm, ⟨18, _⟩ => ⟨S4096x84, .i1⟩
  | .hbm, ⟨19, _⟩ => ⟨S4096x84, .i1⟩
  | .hbm, ⟨20, _⟩ => ⟨S1x84, .i32⟩
  | .hbm, ⟨21, _⟩ => ⟨S4096x1, .i32⟩
  | .hbm, ⟨22, _⟩ => ⟨S4096x84, .i32⟩
  | .hbm, ⟨23, _⟩ => ⟨S4096x84, .i32⟩
  | .hbm, ⟨24, _⟩ => ⟨S4096x84, .i1⟩
  | .hbm, ⟨25, _⟩ => ⟨S1x84, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x84, .i32⟩
  | .hbm, ⟨31, _⟩ => ⟨S4096x84, .i32⟩
  | .hbm, ⟨32, _⟩ => ⟨S4096x84, .i1⟩
  | .hbm, ⟨33, _⟩ => ⟨S4096x84, .i1⟩
  | .hbm, ⟨34, _⟩ => ⟨S4096x1x84x1, .i1⟩
  | .hbm, ⟨35, _⟩ => ⟨S4096x1x1x84, .i1⟩
  | .hbm, ⟨36, _⟩ => ⟨S4096x1x84x84, .i1⟩
  | .hbm, ⟨37, _⟩ => ⟨S4096x1x84x84, .i1⟩
  | .hbm, ⟨38, _⟩ => ⟨S4096x1x84x84, .i1⟩
  | .hbm, ⟨39, _⟩ => ⟨S4096x9x1x1, .f32⟩
  | .hbm, ⟨40, _⟩ => ⟨S4096x9x84x84, .i1⟩
  | .hbm, ⟨41, _⟩ => ⟨S4096x9x84x84, .f32⟩
  | .hbm, ⟨42, _⟩ => ⟨S4096x9x84x84, .f32⟩
  | _, _ => ⟨S4096x9x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_v34 : Ref sig .tc := ⟨.hbm, 42, rfl⟩

abbrev nD : Nat := 1
abbrev τ : Topo := Topo.v7x

variable {F : FTy → Type} [FloatOps F]

class Facts₀ : Prop where
  bcast_S84_S1x84_1 : S84.BroadcastsInDim S1x84 (![1] : Fin 1 → Fin S1x84.rank)
  bcast_S4096_S4096x1_0 : S4096.BroadcastsInDim S4096x1 (![0] : Fin 1 → Fin S4096x1.rank)
  bcast_S1x84_S4096x84_0_1 : S1x84.BroadcastsInDim S4096x84 (![0, 1] : Fin 2 → Fin S4096x84.rank)
  bcast_S4096x1_S4096x84_0_1 : S4096x1.BroadcastsInDim S4096x84 (![0, 1] : Fin 2 → Fin S4096x84.rank)
  bcast_S_S4096x1 : S_.BroadcastsInDim S4096x1 (![] : Fin 0 → Fin S4096x1.rank)
  bcast_S4096x84_S4096x1x84x1_0_2 : S4096x84.BroadcastsInDim S4096x1x84x1 (![0, 2] : Fin 2 → Fin S4096x1x84x1.rank)
  bcast_S4096x84_S4096x1x1x84_0_3 : S4096x84.BroadcastsInDim S4096x1x1x84 (![0, 3] : Fin 2 → Fin S4096x1x1x84.rank)
  bcast_S4096x1x84x1_S4096x1x84x84_0_1_2_3 : S4096x1x84x1.BroadcastsInDim S4096x1x84x84 (![0, 1, 2, 3] : Fin 4 → Fin S4096x1x84x84.rank)
  bcast_S4096x1x1x84_S4096x1x84x84_0_1_2_3 : S4096x1x1x84.BroadcastsInDim S4096x1x84x84 (![0, 1, 2, 3] : Fin 4 → Fin S4096x1x84x84.rank)
  bcast_S4096x9_S4096x9x1x1_0_1 : S4096x9.BroadcastsInDim S4096x9x1x1 (![0, 1] : Fin 2 → Fin S4096x9x1x1.rank)
  bcast_S4096x1x84x84_S4096x9x84x84_0_1_2_3 : S4096x1x84x84.BroadcastsInDim S4096x9x84x84 (![0, 1, 2, 3] : Fin 4 → Fin S4096x9x84x84.rank)
  bcast_S4096x9x1x1_S4096x9x84x84_0_1_2_3 : S4096x9x1x1.BroadcastsInDim S4096x9x84x84 (![0, 1, 2, 3] : Fin 4 → Fin S4096x9x84x84.rank)

variable [Facts₀]

class Facts : Prop extends Facts₀ where

variable [Facts]
-- ==== Proof.Patch.lean ====
/-
  The cutout with a colour fill, as one function of the four argument arrays.

  An image batch `x` of shape [4096, 9, 84, 84], a palette `col` of shape [4096, 9] and two integer vectors `tops`,
  `lefts` of length 4096 are given.  Sample `n` has a square patch of 28 rows and 28 columns whose upper left corner is
  (`tops n`, `lefts n`).  The result keeps `x` outside the patch and, inside it, holds the sample's colour of the channel:

      filled x col tops lefts (n, ch, r, q) = if r, q lie in the patch of n then col (n, ch) else x (n, ch, r, q).

  Membership in the patch is a one-bit word computed in 32-bit two's-complement arithmetic, exactly as both programs
  compute it: `t ≤ r` and `r < t + 28` as signed comparisons, the sum wrapping.  No float operation occurs: the result's
  elements are elements of `col` or of `x`, whatever the float instance.
-/
import Idealize.ShloMosaic.Lib.ValueIdx

noncomputable section

namespace Cert.Cutout

open Idealize.ShloMosaic Idealize.ShloMosaic.ValueIdx

/-- The image batch's shape, the palette's and the per-sample vectors'. -/
abbrev Img : Shape := ⟨4, ![4096, 9, 84, 84]⟩
abbrev Pal : Shape := ⟨2, ![4096, 9]⟩
abbrev Smp : Shape := ⟨1, ![4096]⟩

/-- The one-bit word "coordinate `r` lies in the band of 28 that starts at `t`": `t ≤ r` and `r < t + 28`, signed, at
    32 bits. -/
def inBand (t : BitVec 32) (r : Nat) : BitVec 1 :=
  IntOp.andi (IntOp.cmpi .sge (BitVec.ofNat 32 r) t) (IntOp.cmpi .slt (BitVec.ofNat 32 r) (IntOp.addi t 28#32))

/-- The one-bit word "row `r` and column `q` lie in the patch whose corner is (`t`, `l`)". -/
def inPatch (t l : BitVec 32) (r q : Nat) : BitVec 1 := IntOp.andi (inBand t r) (inBand l q)

/-- Conjunction of one-bit words is associative: the row band, then each column comparison in turn, is the row band
    and the column band. -/
theorem andi_band (a b c d : BitVec 1) :
    IntOp.andi (IntOp.andi (IntOp.andi a b) c) d = IntOp.andi (IntOp.andi a b) (IntOp.andi c d) := by
  unfold IntOp.andi
  exact BitVec.and_assoc _ _ _

variable {F : FTy → Type}

/-- The cutout filled with the sample's colours, index by index. -/
def filled (x : Img.Idx → Elt F .f32) (col : Pal.Idx → Elt F .f32) (tops lefts : Smp.Idx → BitVec 32) :
    Img.Idx → Elt F .f32 :=
  fun i => Scalar.select (inPatch (tops (ix1 (i 0))) (lefts (ix1 (i 0))) (i 2).val (i 3).val) (col (ix2 (i 0) (i 1))) (x i)

end Cert.Cutout

end
-- ==== Proof.BodyFill.lean ====
/-
  What the kernel's body stores, element by element.

  At one grid point the body holds a block of 16 samples: the images `x0` of shape [16, 9, 84, 84], the palette rows `x1`
  of shape [16, 9] and the two integer columns `x2`, `x3` of shape [16, 1].  It numbers the rows and the columns of the
  block with two iotas, spreads each integer column (and the column plus 28) over the whole block, compares, takes the
  conjunction of the four one-bit words and selects between the palette row spread over the block and the images.  At
  the element `(n, ch, r, q)` of the block every spread value is read back at the sample `n` (and channel `ch`), the
  iotas read `r` and `q`, and the conjunction regroups into "row band and column band": the stored element is the
  filled cutout's element for the patch corner `(x2 (n, 0), x3 (n, 0))` and the colour `x1 (n, ch)`.
-/
import proofs.«122114_j23519240913599_2_alg».proof.Proof.Gen.KernelIdeal.Skeleton
import proofs.«122114_j23519240913599_2_alg».proof.Proof.Patch
import Idealize.ShloMosaic.Lib.Pipeline.Value

noncomputable section

namespace Cert.Cutout.Body

open Cert.KernelIdeal Cert.KernelIdeal.Gen Idealize.ShloMosaic Idealize.ShloMosaic.ValueIdx Cert.Cutout

variable {F : FTy → Type} [FloatOps F] {α : Type}

/-- A value per sample, spread over the block of images, is read at the sample. -/
theorem spread_sample (v : S16x1x1x1.Idx → α) (hb : S16x1x1x1.Broadcasts S16x9x84x84) (n : Fin 16) (ch : Fin 9) (r q : Fin 84) :
    broadcastTo S16x9x84x84 v hb (ix4 n ch r q) = v (ix4 n 0 0 0) :=
  broadcastTo_apply v hb (ix4 n ch r q) (ix4 n 0 0 0) fun a => match a with
    | ⟨0, _⟩ => by show n.val = if (16 : Nat) = 1 then 0 else n.val; rw [if_neg (by decide)]
    | ⟨1, _⟩ => by show 0 = if (1 : Nat) = 1 then 0 else ch.val; rw [if_pos rfl]
    | ⟨2, _⟩ => by show 0 = if (1 : Nat) = 1 then 0 else r.val; rw [if_pos rfl]
    | ⟨3, _⟩ => by show 0 = if (1 : Nat) = 1 then 0 else q.val; rw [if_pos rfl]

/-- A value per sample and channel, spread over the block of images, is read at the sample and the channel. -/
theorem spread_colour (v : S16x9x1x1.Idx → α) (hb : S16x9x1x1.Broadcasts S16x9x84x84) (n : Fin 16) (ch : Fin 9) (r q : Fin 84) :
    broadcastTo S16x9x84x84 v hb (ix4 n ch r q) = v (ix4 n ch 0 0) :=
  broadcastTo_apply v hb (ix4 n ch r q) (ix4 n ch 0 0) fun a => match a with
    | ⟨0, _⟩ => by show n.val = if (16 : Nat) = 1 then 0 else n.val; rw [if_neg (by decide)]
    | ⟨1, _⟩ => by show ch.val = if (9 : Nat) = 1 then 0 else ch.val; rw [if_neg (by decide)]
    | ⟨2, _⟩ => by show 0 = if (1 : Nat) = 1 then 0 else r.val; rw [if_pos rfl]
    | ⟨3, _⟩ => by show 0 = if (1 : Nat) = 1 then 0 else q.val; rw [if_pos rfl]

/-- A column [16, 1] viewed as [16, 1, 1, 1] keeps its entries: sample `n` sits at row-major position `n` in both. -/
theorem column_cast (v : S16x1.Idx → α) (hc : S16x1.ShapeCasts S16x1x1x1) (n : Fin 16) :
    shapeCast S16x1x1x1 v hc (ix4 n 0 0 0) = v (ix2 n 0) :=
  shapeCast_apply v hc (ix4 n 0 0 0) (ix2 n 0) (by
    rw [Shape.rowMajor_val_two, Shape.rowMajor_val_four]
    show n.val * 1 + 0 = ((n.val * 1 + 0) * 1 + 0) * 1 + 0
    omega)

/-- The palette rows [16, 9] viewed as [16, 9, 1, 1] keep their entries: `(n, ch)` sits at position `9 n + ch` in both. -/
theorem palette_cast (v : S16x9.Idx → α) (hc : S16x9.ShapeCasts S16x9x1x1) (n : Fin 16) (ch : Fin 9) :
    shapeCast S16x9x1x1 v hc (ix4 n ch 0 0) = v (ix2 n ch) :=
  shapeCast_apply v hc (ix4 n ch 0 0) (ix2 n ch) (by
    rw [Shape.rowMajor_val_two, Shape.rowMajor_val_four]
    show n.val * 9 + ch.val = ((n.val * 9 + ch.val) * 1 + 0) * 1 + 0
    omega)

/-- The stored element at `(n, ch, r, q)` of the block: the colour `x1 (n, ch)` where `(r, q)` lies in the patch whose
    corner is `(x2 (n, 0), x3 (n, 0))`, the image's element elsewhere. -/
theorem pay_at (x0 : Vec F S16x9x84x84 .f32) (x2 x3 : Vec F S16x1 .i32) (x1 : Vec F S16x9 .f32) (n : Fin 16) (ch : Fin 9) (r q : Fin 84) :
    k0_pay1 x0 x2 x3 x1 (ix4 n ch r q)
      = Scalar.select (inPatch (x2 (ix2 n 0)) (x3 (ix2 n 0)) r.val q.val) (x1 (ix2 n ch)) (x0 (ix4 n ch r q)) := by
  unfold k0_pay1
  dsimp only [Idealize.ShloMosaic.select, Idealize.ShloMosaic.andi, Idealize.ShloMosaic.cmpi, Idealize.ShloMosaic.addi, Idealize.ShloMosaic.broadcast]
  rw [shapeCast_self x2, shapeCast_self x3, shapeCast_self (shapeCast S16x9x1x1 x1 shapeCasts_S16x9_S16x9x1x1),
    iota_single_apply, iota_single_apply, spread_sample, spread_sample, spread_sample, spread_sample, spread_colour,
    column_cast, column_cast, palette_cast]
  dsimp only [Idealize.ShloMosaic.addi, Idealize.ShloMosaic.broadcast]
  rw [column_cast, column_cast, andi_band]
  rfl

end Cert.Cutout.Body

end
-- ==== Proof.KernelFill.lean ====
/-
  The kernel's result array is the filled cutout.

  The grid has 256 points; point `t` works on the 16 samples `16 t … 16 t + 15`: every window's block index along the
  sample axis is `t` and `0` along every other axis (the other axes are taken whole).  The images and the palette are
  argument arrays; the two integer columns are the argument vectors `tops`, `lefts` re-laid as [4096, 1] before the
  region, so entry `(a, 0)` of a column is entry `a` of the vector.  Hence every element the body reads at point `t` is
  an element of an argument at sample `16 t + n`, and what the point writes back is block `t` of the filled cutout of
  the four arguments.  The 256 blocks tile the result array (sample `a` lies in block `a / 16`), so after the run the
  array is the filled cutout.
-/
import proofs.«122114_j23519240913599_2_alg».proof.Proof.Gen.KernelIdeal.Value
import proofs.«122114_j23519240913599_2_alg».proof.Proof.BodyFill
import Idealize.ShloMosaic.Lib.Pipeline.Value
import Idealize.ShloMosaic.Lib.StableHlo.Run

noncomputable section

namespace Cert.KernelIdeal.Fill

open Cert.KernelIdeal Cert.KernelIdeal.Gen Cert.KernelIdeal.Value Idealize.ShloMosaic Idealize.ShloMosaic.TcCoe Idealize.SL.Sem
open Idealize.ShloMosaic.ValueIdx Cert.Cutout
open Idealize.ShloMosaic.Pipeline (Dat)

variable {F : FTy → Type} [FloatOps F]
variable (m : (ℓ : Loc nD τ sig) → Buf (Elt F) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The block indices, decided over the 256 points: `t` along the sample axis, `0` along every other axis, for the
    result's window and for the four inputs'. -/
theorem idx_facts : ∀ t : Fin cfg0.N,
    win0_4.index t (0 : Fin 4) = t.val ∧ win0_4.index t (1 : Fin 4) = 0 ∧ win0_4.index t (2 : Fin 4) = 0 ∧ win0_4.index t (3 : Fin 4) = 0
    ∧ win0_0.index t (0 : Fin 4) = t.val ∧ win0_0.index t (1 : Fin 4) = 0 ∧ win0_0.index t (2 : Fin 4) = 0 ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The integer columns as the region finds them -/

/-- A vector of length 4096 re-laid as a column [4096, 1] keeps its entries. -/
theorem column_of_vector {α : Type} (v : S4096.Idx → α) (h : S4096.ShapeCasts S4096x1) (k : S4096x1.Idx) (a : S4096.Idx)
    (ha : (a 0).val = (k 0).val) : shapeCast S4096x1 v h k = v a :=
  shapeCast_apply v h k a (by
    rw [Shape.rowMajor_val_one, Shape.rowMajor_val_two]
    have h1 : (k 1).val < 1 := (k 1).isLt
    show (a 0).val = (k 0).val * 1 + (k 1).val
    omega)

/-- The first integer column is `tops` re-laid. -/
theorem V_tops (c : Dev nD) :
    (V m c main_v0 : S4096x1.Idx → BitVec 32) = shapeCast S4096x1 (m ((c : Thread nD τ).loc main_arg2)) shapeCasts_S4096_S4096x1 := by
  dsimp only [V, hostOps0]; after_results; rfl

/-- The second integer column is `lefts` re-laid. -/
theorem V_lefts (c : Dev nD) :
    (V m c main_v1 : S4096x1.Idx → BitVec 32) = shapeCast S4096x1 (m ((c : Thread nD τ).loc main_arg3)) shapeCasts_S4096_S4096x1 := by
  dsimp only [V, hostOps0]; after_results; rfl

/-! ## The input blocks at a point, as elements of the arguments -/

/-- The image block at point `t`: samples `16 t … 16 t + 15` of the image batch. -/
theorem blk_image (c : Dev nD) (t : Fin cfg0.N) (y : S16x9x84x84.Idx) (k : S4096x9x84x84.Idx)
    (h0 : (k 0).val = 16 * t.val + (y 0).val) (h1 : (k 1).val = (y 1).val) (h2 : (k 2).val = (y 2).val) (h3 : (k 3).val = (y 3).val) :
    (iblk m c 0 t : Vec F S16x9x84x84 .f32) y = (m ((c : Thread nD τ).loc main_arg0) : S4096x9x84x84.Idx → Elt F .f32) k := by
  obtain ⟨-, -, -, -, e0, e1, e2, e3, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 4) * 16 + 1 * (y 0).val = (k 0).val; rw [e0, h0]; omega
  | ⟨1, _⟩ => show win0_0.index t (1 : Fin 4) * 9 + 1 * (y 1).val = (k 1).val; rw [e1, h1]; omega
  | ⟨2, _⟩ => show win0_0.index t (2 : Fin 4) * 84 + 1 * (y 2).val = (k 2).val; rw [e2, h2]; omega
  | ⟨3, _⟩ => show win0_0.index t (3 : Fin 4) * 84 + 1 * (y 3).val = (k 3).val; rw [e3, h3]; omega

/-- The palette block at point `t`: rows `16 t … 16 t + 15` of the palette. -/
theorem blk_palette (c : Dev nD) (t : Fin cfg0.N) (y : S16x9.Idx) (k : S4096x9.Idx)
    (h0 : (k 0).val = 16 * t.val + (y 0).val) (h1 : (k 1).val = (y 1).val) :
    (iblk m c 1 t : Vec F S16x9 .f32) y = (m ((c : Thread nD τ).loc main_arg1) : S4096x9.Idx → Elt F .f32) k := by
  obtain ⟨-, -, -, -, -, -, -, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 16 + 1 * (y 0).val = (k 0).val; rw [e0, h0]; omega
  | ⟨1, _⟩ => show win0_1.index t (1 : Fin 2) * 9 + 1 * (y 1).val = (k 1).val; rw [e1, h1]; omega

/-- The first integer column's block at point `t`: entries `16 t … 16 t + 15` of `tops`. -/
theorem blk_tops (c : Dev nD) (t : Fin cfg0.N) (y : S16x1.Idx) (a : S4096.Idx) (h0 : (a 0).val = 16 * t.val + (y 0).val) :
    (iblk m c 2 t : Vec F S16x1 .i32) y = (m ((c : Thread nD τ).loc main_arg2) : S4096.Idx → BitVec 32) a := by
  obtain ⟨-, -, -, -, -, -, -, -, -, -, e0, -⟩ := idx_facts t
  unfold iblk
  rw [View.read_apply]
  show (V m c main_v0 : S4096x1.Idx → BitVec 32) _ = _
  rw [V_tops]
  refine column_of_vector _ _ _ a ?_
  show (a 0).val = win0_2.index t (0 : Fin 2) * 16 + 1 * (y 0).val
  rw [e0, h0]; omega

/-- The second integer column's block at point `t`: entries `16 t … 16 t + 15` of `lefts`. -/
theorem blk_lefts (c : Dev nD) (t : Fin cfg0.N) (y : S16x1.Idx) (a : S4096.Idx) (h0 : (a 0).val = 16 * t.val + (y 0).val) :
    (iblk m c 3 t : Vec F S16x1 .i32) y = (m ((c : Thread nD τ).loc main_arg3) : S4096.Idx → BitVec 32) a := by
  obtain ⟨-, -, -, -, -, -, -, -, -, -, -, -, e0, -⟩ := idx_facts t
  unfold iblk
  rw [View.read_apply]
  show (V m c main_v1 : S4096x1.Idx → BitVec 32) _ = _
  rw [V_lefts]
  refine column_of_vector _ _ _ a ?_
  show (a 0).val = win0_3.index t (0 : Fin 2) * 16 + 1 * (y 0).val
  rw [e0, h0]; omega

/-! ## What a point writes back -/

/-- The filled cutout of the four arguments as launched. -/
abbrev result (c : Dev nD) : S4096x9x84x84.Idx → Elt F .f32 :=
  filled (m ((c : Thread nD τ).loc main_arg0)) (m ((c : Thread nD τ).loc main_arg1))
    (m ((c : Thread nD τ).loc main_arg2)) (m ((c : Thread nD τ).loc main_arg3))

/-- The body's stored element at `y` of point `t`'s block is the filled cutout's element at sample `16 t + y 0`, same
    channel, row and column. -/
theorem point_element (c : Dev nD) (t : Fin cfg0.N) (y : S16x9x84x84.Idx) (k : S4096x9x84x84.Idx)
    (h0 : (k 0).val = 16 * t.val + (y 0).val) (h1 : (k 1).val = (y 1).val) (h2 : (k 2).val = (y 2).val) (h3 : (k 3).val = (y 3).val) :
    k0_pay1 (iblk m c 0 t) (iblk m c 2 t) (iblk m c 3 t) (iblk m c 1 t) y = result m c k := by
  obtain ⟨n, ch, r, q, rfl⟩ : ∃ (n : Fin 16) (ch : Fin 9) (r q : Fin 84), y = ix4 n ch r q := ⟨y 0, y 1, y 2, y 3, eq_ix4 y⟩
  refine (Body.pay_at (iblk m c 0 t) (iblk m c 2 t) (iblk m c 3 t) (iblk m c 1 t) n ch r q).trans ?_
  rw [blk_image m c t (ix4 n ch r q) k h0 h1 h2 h3, blk_palette m c t (ix2 n ch) (ix2 (k 0) (k 1)) h0 h1,
    blk_tops m c t (ix2 n 0) (ix1 (k 0)) h0, blk_lefts m c t (ix2 n 0) (ix1 (k 0)) h0]
  show _ = Scalar.select (inPatch _ _ (k 2).val (k 3).val) _ _
  rw [h2, h3]

/-- WHAT POINT `t` WRITES BACK is block `t` of the filled cutout. -/
theorem flushed_eq (c : Dev nD) (t : Fin cfg0.N) :
    (dats m 0 c).flushed 4 t = ((cfg0.win 4).blk t).view.read (Elt F) (result m c) := by
  rw [flushed4]
  unfold out0_4
  rw [View.canon_unit_zero hz4]
  simp only [View.ld_unit_zero (S := S16x9x84x84) hz4, View.ld_unit_zero (S := S16x1) hz2, View.ld_unit_zero (S := S16x9) hz2]
  obtain ⟨e0, e1, e2, e3, -⟩ := idx_facts t
  funext j
  refine point_element m c t j (((cfg0.win 4).blk t).view.emb j) ?_ ?_ ?_ ?_
  · show win0_4.index t (0 : Fin 4) * 16 + 1 * (j 0).val = 16 * t.val + (j 0).val; rw [e0]; omega
  · show win0_4.index t (1 : Fin 4) * 9 + 1 * (j 1).val = (j 1).val; rw [e1]; omega
  · show win0_4.index t (2 : Fin 4) * 84 + 1 * (j 2).val = (j 2).val; rw [e2]; omega
  · show win0_4.index t (3 : Fin 4) * 84 + 1 * (j 3).val = (j 3).val; rw [e3]; omega

/-! ## The blocks tile the array -/

/-- An index of the array is in point `t`'s block iff each coordinate is in the block's range on its axis. -/
theorem mem_blk (t : Fin cfg0.N) (i : S4096x9x84x84.Idx) :
    i ∈ ((cfg0.win 4).blk t).view.set ↔ ∀ a : Fin 4, win0_4.index t a * S16x9x84x84.size a ≤ (i a).val ∧ (i a).val < win0_4.index t a * S16x9x84x84.size a + S16x9x84x84.size a := by
  show i ∈ ((View.whole main_v2).slice (win0_4.rect t)).set ↔ _
  rw [View.set_slice_whole, Rect.mem_set_unit]
  exact Iff.rfl

/-- Sample `a` lies in the block of point `a / 16`. -/
theorem cover (i : S4096x9x84x84.Idx) : ∃ t : Fin cfg0.N, (cfg0.win 4).flush t = true ∧ i ∈ ((cfg0.win 4).blk t).view.set := by
  have hi0 : (i 0).val < 4096 := (i 0).isLt
  have hi1 : (i 1).val < 9 := (i 1).isLt
  have hi2 : (i 2).val < 84 := (i 2).isLt
  have hi3 : (i 3).val < 84 := (i 3).isLt
  have hN : grid0.N = 256 := N_0
  have hlt : (i 0).val / 16 < cfg0.N := by show (i 0).val / 16 < grid0.N; omega
  obtain ⟨e0, e1, e2, e3, -⟩ := idx_facts ⟨(i 0).val / 16, hlt⟩
  refine ⟨⟨(i 0).val / 16, hlt⟩, flush0_4 _, ?_⟩
  rw [mem_blk]
  intro a
  match a with
  | ⟨0, _⟩ =>
    show win0_4.index ⟨(i 0).val / 16, hlt⟩ (0 : Fin 4) * 16 ≤ (i 0).val ∧ (i 0).val < win0_4.index ⟨(i 0).val / 16, hlt⟩ (0 : Fin 4) * 16 + 16
    rw [e0]; show (i 0).val / 16 * 16 ≤ (i 0).val ∧ (i 0).val < (i 0).val / 16 * 16 + 16; omega
  | ⟨1, _⟩ =>
    show win0_4.index ⟨(i 0).val / 16, hlt⟩ (1 : Fin 4) * 9 ≤ (i 1).val ∧ (i 1).val < win0_4.index ⟨(i 0).val / 16, hlt⟩ (1 : Fin 4) * 9 + 9
    rw [e1]; omega
  | ⟨2, _⟩ =>
    show win0_4.index ⟨(i 0).val / 16, hlt⟩ (2 : Fin 4) * 84 ≤ (i 2).val ∧ (i 2).val < win0_4.index ⟨(i 0).val / 16, hlt⟩ (2 : Fin 4) * 84 + 84
    rw [e2]; omega
  | ⟨3, _⟩ =>
    show win0_4.index ⟨(i 0).val / 16, hlt⟩ (3 : Fin 4) * 84 ≤ (i 3).val ∧ (i 3).val < win0_4.index ⟨(i 0).val / 16, hlt⟩ (3 : Fin 4) * 84 + 84
    rw [e3]; omega

/-- THE ARRAY after the run is the filled cutout of the arguments. -/
theorem final (c : Dev nD) : (dats m 0 c).arrAt 4 cfg0.N = result m c :=
  (dats m 0 c).arrAt_eq_of_cover 4 (result m c) (fun t _ => flushed_eq m c t) cover

/-! ## The run, read -/

/-- Every weakly fair execution of the kernel's program terminates with the result array at the filled cutout of the
    arguments and the arguments unchanged. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Fill

end
-- ==== Proof.RefFill.lean ====
/-
  The reference program computes the filled cutout.

  The reference builds the row band of every sample as a [4096, 84] table of one-bit words (row number against the
  sample's `tops` entry, from below and from above), the column band in the same way from `lefts`, spreads the two over
  [4096, 1, 84, 84] and takes their conjunction; a select then takes the palette's entry of the sample and channel where
  the word is set and the image's element elsewhere.  Every one of its operations reads one element of each operand,
  so the result at an index `(n, ch, r, q)` is read off by following the index through the broadcasts: the band tables
  are read at row `r` (or column `q`) of sample `n`, the integer vectors at `n`, the palette at `(n, ch)`.
-/
import proofs.«122114_j23519240913599_2_alg».proof.Proof.Gen.ReferenceIdeal.Read
import proofs.«122114_j23519240913599_2_alg».proof.Proof.Patch

noncomputable section

namespace Cert.Cutout.RefSide

open Cert.ReferenceIdeal Cert.ReferenceIdeal.Read Idealize.ShloMosaic Idealize.ShloMosaic.ValueIdx Cert.Cutout

variable {F : FTy → Type} [FloatOps F]

/-- Where the row comparison from below reads `tops`: at the sample. -/
theorem at_sample_ge (i : S4096x9x84x84.Idx) :
    idx_main_v3 (idx_main_v5 (idx_main_v28 (idx_main_v30 (idx_main_call0_v0 i)))) = ix1 (i 0) :=
  funext fun a => match a with | ⟨0, _⟩ => rfl

/-- Where the row comparison from above reads `tops`: at the sample. -/
theorem at_sample_lt (i : S4096x9x84x84.Idx) :
    idx_main_v8 (idx_main_v12 (idx_main_v28 (idx_main_v30 (idx_main_call0_v0 i)))) = ix1 (i 0) :=
  funext fun a => match a with | ⟨0, _⟩ => rfl

/-- Where the column comparison from below reads `lefts`: at the sample. -/
theorem at_sample_ge' (i : S4096x9x84x84.Idx) :
    idx_main_v16 (idx_main_v18 (idx_main_v29 (idx_main_v31 (idx_main_call0_v0 i)))) = ix1 (i 0) :=
  funext fun a => match a with | ⟨0, _⟩ => rfl

/-- Where the column comparison from above reads `lefts`: at the sample. -/
theorem at_sample_lt' (i : S4096x9x84x84.Idx) :
    idx_main_v21 (idx_main_v25 (idx_main_v29 (idx_main_v31 (idx_main_call0_v0 i)))) = ix1 (i 0) :=
  funext fun a => match a with | ⟨0, _⟩ => rfl

/-- Where the select reads the palette: at the sample and the channel. -/
theorem at_colour (i : S4096x9x84x84.Idx) : idx_main_v33 (idx_main_call0_v1 i) = ix2 (i 0) (i 1) :=
  funext fun a => match a with | ⟨0, _⟩ => rfl | ⟨1, _⟩ => rfl

/-- The reference's result, as a function of its four arguments, is the filled cutout. -/
theorem ref_is_filled (x0 : (⟨S4096x9x84x84, .f32⟩ : BufTy).Contents (Elt F)) (x1 : (⟨S4096x9, .f32⟩ : BufTy).Contents (Elt F))
    (x2 x3 : (⟨S4096, .i32⟩ : BufTy).Contents (Elt F)) :
    val_main_v34 (F := F) x0 x1 x2 x3 = filled x0 x1 x2 x3 := by
  funext i
  simp only [val_main_v34_apply, val_main_call0_v0_apply, val_main_call0_v1_apply, val_main_v33_apply, val_main_v32_apply,
    val_main_v31_apply, val_main_v30_apply, val_main_v29_apply, val_main_v28_apply, val_main_v27_apply, val_main_v26_apply,
    val_main_v25_apply, val_main_v24_apply, val_main_v23_apply, val_main_v22_apply, val_main_c_0_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_c_apply, val_main_v8_apply, val_main_v7_apply, val_main_v6_apply, val_main_v5_apply, val_main_v4_apply,
    val_main_v3_apply, val_main_v2_apply, val_main_v1_apply, val_main_v0_apply]
  rw [at_sample_ge, at_sample_lt, at_sample_ge', at_sample_lt', at_colour]
  rfl

end Cert.Cutout.RefSide

end
-- ==== Proof.lean ====
/-
  The cutout kernel against its reference: both compute the filled cutout.

  For an image batch `x` [4096, 9, 84, 84], a palette `colors` [4096, 9] and integer vectors `tops`, `lefts` [4096], the
  result keeps `x (n, ch, r, q)` unless `tops n ≤ r < tops n + 28` and `lefts n ≤ q < lefts n + 28` (signed 32-bit
  comparisons, the sums wrapping), where it holds `colors (n, ch)` (Proof/Patch.lean: `Cert.Cutout.filled`).

  * The kernel walks the batch 16 samples at a time.  At a point its body numbers rows and columns with iotas, spreads
    the point's 16 entries of `tops` and `lefts` over the block, compares and selects; element by element this is the
    filled cutout of the point's blocks (Proof/BodyFill.lean), the blocks are the arguments' samples `16 t … 16 t + 15`,
    and the 256 written blocks tile the result array (Proof/KernelFill.lean).
  * The reference builds the row band and the column band as [4096, 84] tables, spreads them over the batch, takes
    their conjunction and selects; read at an index through its broadcasts this is the filled cutout
    (Proof/RefFill.lean).

  The two programs group the four comparisons' conjunction differently; conjunction of one-bit words is associative.
  No float operation occurs, so the equality holds for every value of the inputs and the precondition is not used.
  The idealization rewrote nothing in the kernel, so `preserves` has nothing to state.
-/
import proofs.«122114_j23519240913599_2_alg».proof.Defs
import proofs.«122114_j23519240913599_2_alg».proof.Proof.Gen.Kernel
import proofs.«122114_j23519240913599_2_alg».proof.Proof.Gen.Kernel.Skeleton
import proofs.«122114_j23519240913599_2_alg».proof.Proof.Gen.Kernel.Launch
import proofs.«122114_j23519240913599_2_alg».proof.Proof.Gen.Kernel.Points
import proofs.«122114_j23519240913599_2_alg».proof.Proof.Gen.Kernel.Frame
import proofs.«122114_j23519240913599_2_alg».proof.Proof.Gen.KernelIdeal
import proofs.«122114_j23519240913599_2_alg».proof.Proof.Gen.KernelIdeal.Skeleton
import proofs.«122114_j23519240913599_2_alg».proof.Proof.Gen.KernelIdeal.Launch
import proofs.«122114_j23519240913599_2_alg».proof.Proof.Gen.KernelIdeal.Points
import proofs.«122114_j23519240913599_2_alg».proof.Proof.Gen.KernelIdeal.Frame
import proofs.«122114_j23519240913599_2_alg».proof.Proof.Gen.ReferenceIdeal
import proofs.«122114_j23519240913599_2_alg».proof.Proof.Gen.Pre_finite_inputs
import proofs.«122114_j23519240913599_2_alg».proof.Proof.Gen.KernelIdeal.Value
import proofs.«122114_j23519240913599_2_alg».proof.Proof.Gen.ReferenceIdeal.Run
import proofs.«122114_j23519240913599_2_alg».proof.Proof.Gen.ReferenceIdeal.Read
import proofs.«122114_j23519240913599_2_alg».proof.Proof.KernelFill
import proofs.«122114_j23519240913599_2_alg».proof.Proof.RefFill
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on the four arguments both programs end with the filled cutout of those arguments in
    their result arrays. -/
theorem algebraic : Cert.algebraic_KernelIdeal_ReferenceIdeal := by
  intro m ρ m' ρ' _ hagree
  refine ⟨fun c => Cert.KernelIdeal.Fill.result m c, Cert.KernelIdeal.Fill.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.Cutout.RefSide.ref_is_filled,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
